-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x384x32x32 : Shape := ⟨4, ![64, 384, 32, 32]⟩
abbrev S_ : Shape := ⟨0, ![]⟩

class Facts : Prop where
  bcast_S_S64x384x32x32 : S_.BroadcastsInDim S64x384x32x32 (![] : Fin 0 → Fin S64x384x32x32.rank)
  reducesTo_S64x384x32x32_S_d0_1_2_3 : S64x384x32x32.ReducesTo [0, 1, 2, 3] S_
  h_S_ : 0 < S_.numel

variable [Facts]

def fn {F : FTy → Type} [FloatOps F] (main_arg0 : FVec F S64x384x32x32 .f32) : IVec S_ 1 :=
  let main_v0 : FVec F S64x384x32x32 .f32 := Host.absf main_arg0
  let main_cst : FVec F S_ .f32 := constant S_ .f32 0x7F800000#32
  let main_v1 : FVec F S64x384x32x32 .f32 := broadcastInDim S64x384x32x32 ![] bcast_S_S64x384x32x32 main_cst
  let main_v2 : IVec S64x384x32x32 1 := cmpf .olt main_v0 main_v1
  let main_c : IVec S_ 1 := constantI S_ 1 1#1
  let main_v3 : IVec S_ 1 := (fun x v => Host.reduce IntOp.andi x v reducesTo_S64x384x32x32_S_d0_1_2_3 h_S_) main_v2 main_c
  main_v3
-- ==== Kernel.lean ====
abbrev S64x384x32x32 : Shape := ⟨4, ![64, 384, 32, 32]⟩
abbrev S64x6x304x304 : Shape := ⟨4, ![64, 6, 304, 304]⟩
abbrev S1x384x32x32 : Shape := ⟨4, ![1, 384, 32, 32]⟩
abbrev S1x6x304x304 : Shape := ⟨4, ![1, 6, 304, 304]⟩
abbrev S1x64x32x32 : Shape := ⟨4, ![1, 64, 32, 32]⟩
abbrev S1x8x8x32x32 : Shape := ⟨5, ![1, 8, 8, 32, 32]⟩
abbrev S1x32x8x32x8 : Shape := ⟨5, ![1, 32, 8, 32, 8]⟩
abbrev S1x1x256x256 : Shape := ⟨4, ![1, 1, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S64x384x32x32, .f32⟩
  | .hbm, ⟨1, _⟩ => ⟨S64x6x304x304, .f32⟩
  | .local _ .vmem, ⟨0, _⟩ => ⟨S1x384x32x32, .f32⟩
  | .local _ .vmem, ⟨1, _⟩ => ⟨S1x384x32x32, .f32⟩
  | .local _ .vmem, ⟨2, _⟩ => ⟨S1x6x304x304, .f32⟩
  | .local _ .vmem, ⟨3, _⟩ => ⟨S1x6x304x304, .f32⟩
  | _, _ => ⟨S64x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x384x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x304x304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x6x304x304_S1x6x304x304_0_0_0_0 : ∀ a, (![0, 0, 0, 0] : Fin 4 → Nat) a + S1x6x304x304.size a ≤ S1x6x304x304.size a
  h_S1x6x304x304 : 0 < S1x6x304x304.numel
  inb_S1x384x32x32_S1x64x32x32_0_0_0_0 : ∀ a, (![0, 0, 0, 0] : Fin 4 → Nat) a + S1x64x32x32.size a ≤ S1x384x32x32.size a
  h_S1x64x32x32 : 0 < S1x64x32x32.numel
  shapeCasts_S1x64x32x32_S1x8x8x32x32 : S1x64x32x32.ShapeCasts S1x8x8x32x32
  transposes_S1x8x8x32x32_p0_3_1_4_2_S1x32x8x32x8 : S1x8x8x32x32.Transposes [0, 3, 1, 4, 2] S1x32x8x32x8
  shapeCasts_S1x32x8x32x8_S1x1x256x256 : S1x32x8x32x8.ShapeCasts S1x1x256x256
  inb_S1x6x304x304_S1x1x256x256_0_0_0_0 : ∀ a, (![0, 0, 0, 0] : Fin 4 → Nat) a + S1x1x256x256.size a ≤ S1x6x304x304.size a
  h_S1x1x256x256 : 0 < S1x1x256x256.numel
  inb_S1x384x32x32_S1x64x32x32_0_64_0_0 : ∀ a, (![0, 64, 0, 0] : Fin 4 → Nat) a + S1x64x32x32.size a ≤ S1x384x32x32.size a
  inb_S1x6x304x304_S1x1x256x256_0_1_0_0 : ∀ a, (![0, 1, 0, 0] : Fin 4 → Nat) a + S1x1x256x256.size a ≤ S1x6x304x304.size a
  inb_S1x384x32x32_S1x64x32x32_0_128_0_0 : ∀ a, (![0, 128, 0, 0] : Fin 4 → Nat) a + S1x64x32x32.size a ≤ S1x384x32x32.size a
  inb_S1x6x304x304_S1x1x256x256_0_2_0_0 : ∀ a, (![0, 2, 0, 0] : Fin 4 → Nat) a + S1x1x256x256.size a ≤ S1x6x304x304.size a
  inb_S1x384x32x32_S1x64x32x32_0_192_0_0 : ∀ a, (![0, 192, 0, 0] : Fin 4 → Nat) a + S1x64x32x32.size a ≤ S1x384x32x32.size a
  inb_S1x6x304x304_S1x1x256x256_0_3_0_0 : ∀ a, (![0, 3, 0, 0] : Fin 4 → Nat) a + S1x1x256x256.size a ≤ S1x6x304x304.size a
  inb_S1x384x32x32_S1x64x32x32_0_256_0_0 : ∀ a, (![0, 256, 0, 0] : Fin 4 → Nat) a + S1x64x32x32.size a ≤ S1x384x32x32.size a
  inb_S1x6x304x304_S1x1x256x256_0_4_0_0 : ∀ a, (![0, 4, 0, 0] : Fin 4 → Nat) a + S1x1x256x256.size a ≤ S1x6x304x304.size a
  inb_S1x384x32x32_S1x64x32x32_0_320_0_0 : ∀ a, (![0, 320, 0, 0] : Fin 4 → Nat) a + S1x64x32x32.size a ≤ S1x384x32x32.size a
  inb_S1x6x304x304_S1x1x256x256_0_5_0_0 : ∀ a, (![0, 5, 0, 0] : Fin 4 → Nat) a + S1x1x256x256.size a ≤ S1x6x304x304.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x384x32x32.size a ≤ S64x384x32x32.size a
  hwx0_0 : ∀ i : grid0.Coords, EltTy.bits .f32 = 32 ∨ (Rect.block (s := S64x384x32x32) S1x384x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6x304x304.size a ≤ S64x6x304x304.size a
  hwx0_1 : ∀ i : grid0.Coords, EltTy.bits .f32 = 32 ∨ (Rect.block (s := S64x6x304x304) S1x6x304x304.size (cc0_transform_1 i) (hinb0_1 i)).WholeWords (EltTy.packing .f32)

variable [Facts₀]

abbrev win0_0 : Pipeline.Window sig grid0 :=
  Pipeline.Window.ofSpec (Memref.whole main_arg0) S1x384x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x6x304x304.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x384x32x32 : Shape := ⟨4, ![64, 384, 32, 32]⟩
abbrev S64x6x8x8x32x32 : Shape := ⟨6, ![64, 6, 8, 8, 32, 32]⟩
abbrev S64x6x32x8x32x8 : Shape := ⟨6, ![64, 6, 32, 8, 32, 8]⟩
abbrev S64x6x256x256 : Shape := ⟨4, ![64, 6, 256, 256]⟩
abbrev S_ : Shape := ⟨0, ![]⟩
abbrev S64x6x304x304 : Shape := ⟨4, ![64, 6, 304, 304]⟩

abbrev nBuf : Space → Nat
  | .hbm => 7
  | .vmem => 0
  | .smem => 0
  | _ => 0

abbrev bufTy : (tb : Table) → Fin (tcTables nBuf tb) → BufTy
  | .hbm, ⟨0, _⟩ => ⟨S64x384x32x32, .f32⟩
  | .hbm, ⟨1, _⟩ => ⟨S64x6x8x8x32x32, .f32⟩
  | .hbm, ⟨2, _⟩ => ⟨S64x6x32x8x32x8, .f32⟩
  | .hbm, ⟨3, _⟩ => ⟨S64x6x256x256, .f32⟩
  | .hbm, ⟨4, _⟩ => ⟨S_, .i32⟩
  | .hbm, ⟨5, _⟩ => ⟨S_, .f32⟩
  | .hbm, ⟨6, _⟩ => ⟨S64x6x304x304, .f32⟩
  | _, _ => ⟨S64x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_call0_v0 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S64x384x32x32_S64x6x8x8x32x32 : S64x384x32x32.ShapeCasts S64x6x8x8x32x32
  transposes_S64x6x8x8x32x32_S64x6x32x8x32x8_0_1_4_2_5_3 : S64x6x8x8x32x32.Transposes [0, 1, 4, 2, 5, 3] S64x6x32x8x32x8
  shapeCasts_S64x6x32x8x32x8_S64x6x256x256 : S64x6x32x8x32x8.ShapeCasts S64x6x256x256
  pads_S64x6x256x256_S64x6x304x304_000_000_0480_0480 : S64x6x256x256.Pads (![0, 0, 0, 0] : Fin 4 → Nat) ![0, 0, 48, 48] ![0, 0, 0, 0] S64x6x304x304
  h_S_ : 0 < S_.numel

variable [Facts₀]

class Facts : Prop extends Facts₀ where

variable [Facts]
-- ==== Proof.Canvas.lean ====
/-
  Depth-to-space into a zero-padded canvas, as ONE function of the argument array.

  An array `X` of extents [B, 384, 32, 32] holds, per image `b`, 6 classes of 8 × 8 = 64 channels, each a 32 × 32 picture.
  Channel `64·c + 8·p + q` of class `c` is the sub-pixel `(p, q)` of an 8-fold enlargement: its pixel `(i, j)` is the
  enlarged picture's pixel `(8·i + p, 8·j + q)`. The result has extents [B, 6, 304, 304]; the enlarged 256 × 256 picture
  sits in the top-left corner of a 304 × 304 canvas and the rest of the canvas holds the padding value `z`. Read the
  other way round, the canvas at row `r`, column `s` holds

      X[b, 64·c + 8·(r mod 8) + (s mod 8), r div 8, s div 8]      when r < 256 and s < 256,        z otherwise.

  `canvas` is that function, for any number of images `B` (one image is what a grid point handles, 64 the whole array)
  and any type of values (nothing is computed: entries are moved). `tile_apply` reads one class's enlarged picture,
  as the kernel builds it — split the 64 channels into 8 × 8, move the two sub-pixel axes inside the two pixel axes,
  merge (i, p) into a row and (j, q) into a column —, at an index.
-/
import Idealize.ShloMosaic.Lib.ValueIdx
import Idealize.ShloMosaic.Lib.Pipeline.Value

namespace Cert.DepthToSpace

open Idealize.ShloMosaic Idealize.ShloMosaic.ValueIdx

variable {α : Type}

/-- Where the canvas entry of image `b`, class `c`, row `r`, column `s` (both inside the enlarged picture) comes from:
    sub-pixel `(r mod 8, s mod 8)`'s channel of the class, at pixel `(r div 8, s div 8)`. -/
def source {B : Nat} (b : Fin B) (c : Fin 6) (r s : Fin 304) (hr : r.val < 256) (hs : s.val < 256) :
    (⟨4, ![B, 384, 32, 32]⟩ : Shape).Idx :=
  ix4 b ⟨c.val * 64 + (r.val % 8) * 8 + s.val % 8, by have := c.isLt; omega⟩ ⟨r.val / 8, by omega⟩ ⟨s.val / 8, by omega⟩

/-- The canvases of `B` images: the enlarged picture in the top-left 256 × 256 corner, `z` around it. -/
def canvas {B : Nat} (z : α) (X : (⟨4, ![B, 384, 32, 32]⟩ : Shape).Idx → α) : (⟨4, ![B, 6, 304, 304]⟩ : Shape).Idx → α :=
  fun j => if h : (j 2).val < 256 ∧ (j 3).val < 256 then X (source (j 0) (j 1) (j 2) (j 3) h.1 h.2) else z

/-- Inside the enlarged picture the canvas holds the source entry. -/
theorem canvas_inside {B : Nat} (z : α) (X : (⟨4, ![B, 384, 32, 32]⟩ : Shape).Idx → α) (b : Fin B) (c : Fin 6) (r s : Fin 304)
    (hr : r.val < 256) (hs : s.val < 256) : canvas z X (ix4 b c r s) = X (source b c r s hr hs) :=
  dif_pos (c := (r.val < 256 ∧ s.val < 256)) ⟨hr, hs⟩

/-- In the border it holds the padding value. -/
theorem canvas_border {B : Nat} (z : α) (X : (⟨4, ![B, 384, 32, 32]⟩ : Shape).Idx → α) (b : Fin B) (c : Fin 6) (r s : Fin 304)
    (h : ¬(r.val < 256 ∧ s.val < 256)) : canvas z X (ix4 b c r s) = z :=
  dif_neg (c := (r.val < 256 ∧ s.val < 256)) h

/-- ONE CLASS'S ENLARGED PICTURE at row `r`, column `s`: the 64 channels `v` of the class, split into 8 × 8 sub-pixels
    (`[1, 64, 32, 32] → [1, 8, 8, 32, 32]`, axes image, p, q, i, j), reordered to (image, i, p, j, q) and merged into
    rows `8·i + p` and columns `8·j + q` (`→ [1, 1, 256, 256]`), hold at `(r, s)` channel `8·(r mod 8) + (s mod 8)`'s pixel
    `(r div 8, s div 8)`: the three layout steps preserve, in turn, the row-major position, the coordinates up to
    the reordering, and the row-major position again. -/
theorem tile_apply (v : (⟨4, ![1, 64, 32, 32]⟩ : Shape).Idx → α)
    (h1 : (⟨4, ![1, 64, 32, 32]⟩ : Shape).ShapeCasts ⟨5, ![1, 8, 8, 32, 32]⟩)
    (h2 : (⟨5, ![1, 8, 8, 32, 32]⟩ : Shape).Transposes [0, 3, 1, 4, 2] ⟨5, ![1, 32, 8, 32, 8]⟩)
    (h3 : (⟨5, ![1, 32, 8, 32, 8]⟩ : Shape).ShapeCasts ⟨4, ![1, 1, 256, 256]⟩)
    (a b : Fin 1) (r s : Fin 256) :
    shapeCast ⟨4, ![1, 1, 256, 256]⟩ (transpose ⟨5, ![1, 32, 8, 32, 8]⟩ [0, 3, 1, 4, 2]
        (shapeCast ⟨5, ![1, 8, 8, 32, 32]⟩ v h1) h2) h3 (ix4 a b r s)
      = v (ix4 (0 : Fin 1) (⟨(r.val % 8) * 8 + s.val % 8, by omega⟩ : Fin 64) (⟨r.val / 8, by omega⟩ : Fin 32)
          (⟨s.val / 8, by omega⟩ : Fin 32)) := by
  have ha : a.val = 0 := by omega
  have hb : b.val = 0 := by omega
  refine (shapeCast_apply _ h3 _ (ix5 (0 : Fin 1) (⟨r.val / 8, by omega⟩ : Fin 32) (⟨r.val % 8, by omega⟩ : Fin 8)
    (⟨s.val / 8, by omega⟩ : Fin 32) (⟨s.val % 8, by omega⟩ : Fin 8)) ?_).trans ?_
  · rw [Shape.rowMajor_val_five, Shape.rowMajor_val_four]
    show (((0 * 32 + r.val / 8) * 8 + r.val % 8) * 32 + s.val / 8) * 8 + s.val % 8
      = ((a.val * 1 + b.val) * 256 + r.val) * 256 + s.val
    omega
  refine (transpose_apply [0, 3, 1, 4, 2] _ h2 _ (ix5 (0 : Fin 1) (⟨r.val % 8, by omega⟩ : Fin 8) (⟨s.val % 8, by omega⟩ : Fin 8)
    (⟨r.val / 8, by omega⟩ : Fin 32) (⟨s.val / 8, by omega⟩ : Fin 32)) ?_).trans ?_
  · intro d
    match d with
    | ⟨0, _⟩ => rfl
    | ⟨1, _⟩ => rfl
    | ⟨2, _⟩ => rfl
    | ⟨3, _⟩ => rfl
    | ⟨4, _⟩ => rfl
  refine shapeCast_apply _ h1 _ _ ?_
  rw [Shape.rowMajor_val_four, Shape.rowMajor_val_five]
  show ((0 * 64 + ((r.val % 8) * 8 + s.val % 8)) * 32 + r.val / 8) * 32 + s.val / 8
    = (((0 * 8 + r.val % 8) * 8 + s.val % 8) * 32 + r.val / 8) * 32 + s.val / 8
  omega

end Cert.DepthToSpace
-- ==== Proof.TwoRounds.lean ====
/-
  Stores made in two rounds, read back.

  A buffer filled by a list of rectangle stores reads, at each index, the payload of the LAST store whose rectangle
  holds the index; the library's `View.canon` is that reading for a list given last store first. When the stores come
  in two rounds — first `L₂`, afterwards `L₁` — an index that no store of the second round touches still holds what the
  first round left, and an index that some store of the second round touches does not depend on the first round at all.
-/
import Idealize.ShloMosaic.Lib.Pipeline.Value

namespace Cert.DepthToSpace

open Idealize.ShloMosaic

variable {Val : EltTy → Type} {S : Shape} {e : EltTy}

/-- An index outside every rectangle of the later round reads what the earlier round left. -/
theorem canon_append_of_untouched [∀ e, Nonempty (Val e)] :
    ∀ (L₁ L₂ : List (View.Piece Val S e)) (y : S.Idx), (∀ p ∈ L₁, y ∉ p.1.set) →
      View.canon (L₁ ++ L₂) y = View.canon L₂ y
  | [], _, _, _ => rfl
  | p :: L₁, L₂, y, h => by
    rw [List.cons_append, View.canon_cons_of_not_mem p (L₁ ++ L₂) (h p List.mem_cons_self)]
    exact canon_append_of_untouched L₁ L₂ y fun q hq => h q (List.mem_cons_of_mem p hq)

/-- An index inside some rectangle of the later round reads that round alone. -/
theorem canon_append_of_touched [∀ e, Nonempty (Val e)] :
    ∀ (L₁ L₂ : List (View.Piece Val S e)) (y : S.Idx), (∃ p ∈ L₁, y ∈ p.1.set) →
      View.canon (L₁ ++ L₂) y = View.canon L₁ y
  | [], _, _, h => by obtain ⟨p, hp, _⟩ := h; exact absurd hp List.not_mem_nil
  | p :: L₁, L₂, y, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem p (L₁ ++ L₂) hy, View.canon_cons_of_not_mem p L₁ hy]
      refine canon_append_of_touched L₁ L₂ y ?_
      obtain ⟨q, hq, hyq⟩ := h
      rcases List.mem_cons.mp hq with rfl | hq'
      · exact absurd hyq hy
      · exact ⟨q, hq', hyq⟩

end Cert.DepthToSpace
-- ==== Proof.BlockCanvas.lean ====
/-
  One image's canvas, written by seven rectangle stores.

  A grid point holds one image: its 384 channels `x` (extents [1, 384, 32, 32]) and its canvases (extents
  [1, 6, 304, 304]). It first fills all six canvases with the padding value, and then, class by class, overwrites the
  top-left 256 × 256 corner of canvas `c` with the enlarged picture built from channels `64·c … 64·c + 63`. Read back,
  the seven stores leave `canvas z x`: an index in the corner of canvas `c` lies in exactly the rectangle of class `c`'s
  store, whose payload there is the source entry; an index in the border lies in none of the six class rectangles and
  keeps the padding value of the first store.
-/
import proofs.«151657_j89206470738670_2_alg».proof.Proof.Canvas
import proofs.«151657_j89206470738670_2_alg».proof.Proof.TwoRounds

namespace Cert.DepthToSpace

open Idealize.ShloMosaic Idealize.ShloMosaic.ValueIdx

variable {Val : EltTy → Type} {e : EltTy}

/-- One image's channels and one image's canvases. -/
abbrev Chan : Shape := ⟨4, ![1, 384, 32, 32]⟩
abbrev Canv : Shape := ⟨4, ![1, 6, 304, 304]⟩

theorem zero_offsets : (![0, 0, 0, 0] : Fin 4 → Nat) = fun _ => 0 :=
  funext fun a => by match a with | ⟨0, _⟩ => rfl | ⟨1, _⟩ => rfl | ⟨2, _⟩ => rfl | ⟨3, _⟩ => rfl

/-- A class's enlarged picture from its 64 channels: split, reorder, merge (`tile_apply` reads it at an index). -/
def tile (h1 : (⟨4, ![1, 64, 32, 32]⟩ : Shape).ShapeCasts ⟨5, ![1, 8, 8, 32, 32]⟩)
    (h2 : (⟨5, ![1, 8, 8, 32, 32]⟩ : Shape).Transposes [0, 3, 1, 4, 2] ⟨5, ![1, 32, 8, 32, 8]⟩)
    (h3 : (⟨5, ![1, 32, 8, 32, 8]⟩ : Shape).ShapeCasts ⟨4, ![1, 1, 256, 256]⟩)
    (v : (⟨4, ![1, 64, 32, 32]⟩ : Shape).Idx → Val e) : (⟨4, ![1, 1, 256, 256]⟩ : Shape).Idx → Val e :=
  shapeCast ⟨4, ![1, 1, 256, 256]⟩ (transpose ⟨5, ![1, 32, 8, 32, 8]⟩ [0, 3, 1, 4, 2]
    (shapeCast ⟨5, ![1, 8, 8, 32, 32]⟩ v h1) h2) h3

/-- CLASS `cl`'s STORE IS A BLOCK OF THE CANVAS: the enlarged picture of channels `64·cl … 64·cl + 63`, at its own
    index `u`, is the canvas at the index the store's rectangle (the corner of canvas `cl`) puts `u` at. -/
theorem class_store (z : Val e) (x : Chan.Idx → Val e) (cl : Nat) (hcl : cl < 6) (h1) (h2) (h3)
    (inbS : ∀ a, ![0, cl, 0, 0] a + ![1, 1, 256, 256] a ≤ Canv.size a)
    (inbL : ∀ a, ![0, 64 * cl, 0, 0] a + ![1, 64, 32, 32] a ≤ Chan.size a)
    (u : (Rect.unit (s := Canv) ![0, cl, 0, 0] ![1, 1, 256, 256] inbS).shape.Idx) :
    tile h1 h2 h3 (View.ld x (Rect.unit (s := Chan) ![0, 64 * cl, 0, 0] ![1, 64, 32, 32] inbL)) u
      = canvas z x ((Rect.unit (s := Canv) ![0, cl, 0, 0] ![1, 1, 256, 256] inbS).emb u) := by
  obtain ⟨a, b, r, s, rfl⟩ : ∃ (a b : Fin 1) (r s : Fin 256), u = ix4 a b r s := ⟨u 0, u 1, u 2, u 3, eq_ix4 u⟩
  have ha : a.val = 0 := by omega
  have hb : b.val = 0 := by omega
  have hr : r.val < 256 := r.isLt
  have hs : s.val < 256 := s.isLt
  have hemb : (Rect.unit (s := Canv) ![0, cl, 0, 0] ![1, 1, 256, 256] inbS).emb (ix4 a b r s)
      = ix4 (0 : Fin 1) (⟨cl, hcl⟩ : Fin 6) (⟨r.val, by omega⟩ : Fin 304) (⟨s.val, by omega⟩ : Fin 304) :=
    funext fun d => Fin.ext (by
      match d with
      | ⟨0, _⟩ => show 0 + 1 * a.val = 0; omega
      | ⟨1, _⟩ => show cl + 1 * b.val = cl; omega
      | ⟨2, _⟩ => show 0 + 1 * r.val = r.val; omega
      | ⟨3, _⟩ => show 0 + 1 * s.val = s.val; omega)
  rw [hemb, canvas_inside z x _ _ _ _ hr hs]
  unfold tile
  refine (tile_apply _ h1 h2 h3 a b r s).trans ?_
  show x _ = x _
  refine congrArg x (funext fun d => Fin.ext ?_)
  match d with
  | ⟨0, _⟩ => show 0 + 1 * 0 = 0; omega
  | ⟨1, _⟩ => show 64 * cl + 1 * ((r.val % 8) * 8 + s.val % 8) = cl * 64 + (r.val % 8) * 8 + s.val % 8; omega
  | ⟨2, _⟩ => show 0 + 1 * (r.val / 8) = r.val / 8; omega
  | ⟨3, _⟩ => show 0 + 1 * (s.val / 8) = s.val / 8; omega

/-- The corner of canvas `cl` is inside class `cl`'s rectangle, -/
theorem mem_class (cl : Nat) (inbS : ∀ a, ![0, cl, 0, 0] a + ![1, 1, 256, 256] a ≤ Canv.size a)
    (b : Fin 1) (c : Fin 6) (r s : Fin 304) (hc : c.val = cl) (hr : r.val < 256) (hs : s.val < 256) :
    (ix4 b c r s : Canv.Idx) ∈ (Rect.unit (s := Canv) ![0, cl, 0, 0] ![1, 1, 256, 256] inbS).set := by
  rw [Rect.mem_set_unit]
  intro d
  match d with
  | ⟨0, _⟩ => show 0 ≤ b.val ∧ b.val < 0 + 1; omega
  | ⟨1, _⟩ => show cl ≤ c.val ∧ c.val < cl + 1; omega
  | ⟨2, _⟩ => show 0 ≤ r.val ∧ r.val < 0 + 256; omega
  | ⟨3, _⟩ => show 0 ≤ s.val ∧ s.val < 0 + 256; omega

/-- and the border of every canvas is outside every class's rectangle. -/
theorem not_mem_class (cl : Nat) (inbS : ∀ a, ![0, cl, 0, 0] a + ![1, 1, 256, 256] a ≤ Canv.size a)
    (b : Fin 1) (c : Fin 6) (r s : Fin 304) (h : ¬(r.val < 256 ∧ s.val < 256)) :
    (ix4 b c r s : Canv.Idx) ∉ (Rect.unit (s := Canv) ![0, cl, 0, 0] ![1, 1, 256, 256] inbS).set := by
  rw [Rect.mem_set_unit]
  intro hm
  have h2 : 0 ≤ r.val ∧ r.val < 0 + 256 := hm (2 : Fin 4)
  have h3 : 0 ≤ s.val ∧ s.val < 0 + 256 := hm (3 : Fin 4)
  omega

/-- THE SEVEN STORES READ BACK (last store first): the six class stores over the fill leave the image's canvases. -/
theorem canon_stores [∀ e, Nonempty (Val e)] (z : Val e) (x : Chan.Idx → Val e) (h1) (h2) (h3)
    (s5 : ∀ a, ![0, 5, 0, 0] a + ![1, 1, 256, 256] a ≤ Canv.size a) (l5 : ∀ a, ![0, 320, 0, 0] a + ![1, 64, 32, 32] a ≤ Chan.size a)
    (s4 : ∀ a, ![0, 4, 0, 0] a + ![1, 1, 256, 256] a ≤ Canv.size a) (l4 : ∀ a, ![0, 256, 0, 0] a + ![1, 64, 32, 32] a ≤ Chan.size a)
    (s3 : ∀ a, ![0, 3, 0, 0] a + ![1, 1, 256, 256] a ≤ Canv.size a) (l3 : ∀ a, ![0, 192, 0, 0] a + ![1, 64, 32, 32] a ≤ Chan.size a)
    (s2 : ∀ a, ![0, 2, 0, 0] a + ![1, 1, 256, 256] a ≤ Canv.size a) (l2 : ∀ a, ![0, 128, 0, 0] a + ![1, 64, 32, 32] a ≤ Chan.size a)
    (s1 : ∀ a, ![0, 1, 0, 0] a + ![1, 1, 256, 256] a ≤ Canv.size a) (l1 : ∀ a, ![0, 64, 0, 0] a + ![1, 64, 32, 32] a ≤ Chan.size a)
    (s0 : ∀ a, ![0, 0, 0, 0] a + ![1, 1, 256, 256] a ≤ Canv.size a) (l0 : ∀ a, ![0, 0, 0, 0] a + ![1, 64, 32, 32] a ≤ Chan.size a)
    (sz : ∀ a, ![0, 0, 0, 0] a + Canv.size a ≤ Canv.size a) :
    View.canon (Val := Val) (s := Canv) (e := e)
      [⟨Rect.unit ![0, 5, 0, 0] ![1, 1, 256, 256] s5, tile h1 h2 h3 (View.ld x (Rect.unit (s := Chan) ![0, 320, 0, 0] ![1, 64, 32, 32] l5))⟩,
       ⟨Rect.unit ![0, 4, 0, 0] ![1, 1, 256, 256] s4, tile h1 h2 h3 (View.ld x (Rect.unit (s := Chan) ![0, 256, 0, 0] ![1, 64, 32, 32] l4))⟩,
       ⟨Rect.unit ![0, 3, 0, 0] ![1, 1, 256, 256] s3, tile h1 h2 h3 (View.ld x (Rect.unit (s := Chan) ![0, 192, 0, 0] ![1, 64, 32, 32] l3))⟩,
       ⟨Rect.unit ![0, 2, 0, 0] ![1, 1, 256, 256] s2, tile h1 h2 h3 (View.ld x (Rect.unit (s := Chan) ![0, 128, 0, 0] ![1, 64, 32, 32] l2))⟩,
       ⟨Rect.unit ![0, 1, 0, 0] ![1, 1, 256, 256] s1, tile h1 h2 h3 (View.ld x (Rect.unit (s := Chan) ![0, 64, 0, 0] ![1, 64, 32, 32] l1))⟩,
       ⟨Rect.unit ![0, 0, 0, 0] ![1, 1, 256, 256] s0, tile h1 h2 h3 (View.ld x (Rect.unit (s := Chan) ![0, 0, 0, 0] ![1, 64, 32, 32] l0))⟩,
       ⟨Rect.unit ![0, 0, 0, 0] Canv.size sz, fun _ => z⟩]
      = canvas z x := by
  -- the fill is the first round, the six class stores the second
  have hrounds : ([⟨Rect.unit ![0, 5, 0, 0] ![1, 1, 256, 256] s5, tile h1 h2 h3 (View.ld x (Rect.unit (s := Chan) ![0, 320, 0, 0] ![1, 64, 32, 32] l5))⟩,
       ⟨Rect.unit ![0, 4, 0, 0] ![1, 1, 256, 256] s4, tile h1 h2 h3 (View.ld x (Rect.unit (s := Chan) ![0, 256, 0, 0] ![1, 64, 32, 32] l4))⟩,
       ⟨Rect.unit ![0, 3, 0, 0] ![1, 1, 256, 256] s3, tile h1 h2 h3 (View.ld x (Rect.unit (s := Chan) ![0, 192, 0, 0] ![1, 64, 32, 32] l3))⟩,
       ⟨Rect.unit ![0, 2, 0, 0] ![1, 1, 256, 256] s2, tile h1 h2 h3 (View.ld x (Rect.unit (s := Chan) ![0, 128, 0, 0] ![1, 64, 32, 32] l2))⟩,
       ⟨Rect.unit ![0, 1, 0, 0] ![1, 1, 256, 256] s1, tile h1 h2 h3 (View.ld x (Rect.unit (s := Chan) ![0, 64, 0, 0] ![1, 64, 32, 32] l1))⟩,
       ⟨Rect.unit ![0, 0, 0, 0] ![1, 1, 256, 256] s0, tile h1 h2 h3 (View.ld x (Rect.unit (s := Chan) ![0, 0, 0, 0] ![1, 64, 32, 32] l0))⟩,
       ⟨Rect.unit ![0, 0, 0, 0] Canv.size sz, fun _ => z⟩] : List (View.Piece Val Canv e))
      = [⟨Rect.unit ![0, 5, 0, 0] ![1, 1, 256, 256] s5, tile h1 h2 h3 (View.ld x (Rect.unit (s := Chan) ![0, 320, 0, 0] ![1, 64, 32, 32] l5))⟩,
       ⟨Rect.unit ![0, 4, 0, 0] ![1, 1, 256, 256] s4, tile h1 h2 h3 (View.ld x (Rect.unit (s := Chan) ![0, 256, 0, 0] ![1, 64, 32, 32] l4))⟩,
       ⟨Rect.unit ![0, 3, 0, 0] ![1, 1, 256, 256] s3, tile h1 h2 h3 (View.ld x (Rect.unit (s := Chan) ![0, 192, 0, 0] ![1, 64, 32, 32] l3))⟩,
       ⟨Rect.unit ![0, 2, 0, 0] ![1, 1, 256, 256] s2, tile h1 h2 h3 (View.ld x (Rect.unit (s := Chan) ![0, 128, 0, 0] ![1, 64, 32, 32] l2))⟩,
       ⟨Rect.unit ![0, 1, 0, 0] ![1, 1, 256, 256] s1, tile h1 h2 h3 (View.ld x (Rect.unit (s := Chan) ![0, 64, 0, 0] ![1, 64, 32, 32] l1))⟩,
       ⟨Rect.unit ![0, 0, 0, 0] ![1, 1, 256, 256] s0, tile h1 h2 h3 (View.ld x (Rect.unit (s := Chan) ![0, 0, 0, 0] ![1, 64, 32, 32] l0))⟩] ++ [⟨Rect.unit ![0, 0, 0, 0] Canv.size sz, fun _ => z⟩] := rfl
  rw [hrounds]
  -- every class store is a block of the canvas
  have hstores : ∀ p ∈ ([⟨Rect.unit ![0, 5, 0, 0] ![1, 1, 256, 256] s5, tile h1 h2 h3 (View.ld x (Rect.unit (s := Chan) ![0, 320, 0, 0] ![1, 64, 32, 32] l5))⟩,
       ⟨Rect.unit ![0, 4, 0, 0] ![1, 1, 256, 256] s4, tile h1 h2 h3 (View.ld x (Rect.unit (s := Chan) ![0, 256, 0, 0] ![1, 64, 32, 32] l4))⟩,
       ⟨Rect.unit ![0, 3, 0, 0] ![1, 1, 256, 256] s3, tile h1 h2 h3 (View.ld x (Rect.unit (s := Chan) ![0, 192, 0, 0] ![1, 64, 32, 32] l3))⟩,
       ⟨Rect.unit ![0, 2, 0, 0] ![1, 1, 256, 256] s2, tile h1 h2 h3 (View.ld x (Rect.unit (s := Chan) ![0, 128, 0, 0] ![1, 64, 32, 32] l2))⟩,
       ⟨Rect.unit ![0, 1, 0, 0] ![1, 1, 256, 256] s1, tile h1 h2 h3 (View.ld x (Rect.unit (s := Chan) ![0, 64, 0, 0] ![1, 64, 32, 32] l1))⟩,
       ⟨Rect.unit ![0, 0, 0, 0] ![1, 1, 256, 256] s0, tile h1 h2 h3 (View.ld x (Rect.unit (s := Chan) ![0, 0, 0, 0] ![1, 64, 32, 32] l0))⟩] : List (View.Piece Val Canv e)),
      ∀ u : p.1.shape.Idx, p.2 u = canvas z x (p.1.emb u) := by
    intro p hp
    simp only [List.mem_cons, List.not_mem_nil, or_false] at hp
    rcases hp with rfl | rfl | rfl | rfl | rfl | rfl
    · exact class_store z x 5 (by omega) h1 h2 h3 s5 l5
    · exact class_store z x 4 (by omega) h1 h2 h3 s4 l4
    · exact class_store z x 3 (by omega) h1 h2 h3 s3 l3
    · exact class_store z x 2 (by omega) h1 h2 h3 s2 l2
    · exact class_store z x 1 (by omega) h1 h2 h3 s1 l1
    · exact class_store z x 0 (by omega) h1 h2 h3 s0 l0
  funext y
  obtain ⟨b, c, r, s, rfl⟩ : ∃ (b : Fin 1) (c : Fin 6) (r s : Fin 304), y = ix4 b c r s := ⟨y 0, y 1, y 2, y 3, eq_ix4 y⟩
  by_cases h : r.val < 256 ∧ s.val < 256
  · -- in the corner: class `c`'s store holds the index
    have hcover : ∃ p ∈ ([⟨Rect.unit ![0, 5, 0, 0] ![1, 1, 256, 256] s5, tile h1 h2 h3 (View.ld x (Rect.unit (s := Chan) ![0, 320, 0, 0] ![1, 64, 32, 32] l5))⟩,
       ⟨Rect.unit ![0, 4, 0, 0] ![1, 1, 256, 256] s4, tile h1 h2 h3 (View.ld x (Rect.unit (s := Chan) ![0, 256, 0, 0] ![1, 64, 32, 32] l4))⟩,
       ⟨Rect.unit ![0, 3, 0, 0] ![1, 1, 256, 256] s3, tile h1 h2 h3 (View.ld x (Rect.unit (s := Chan) ![0, 192, 0, 0] ![1, 64, 32, 32] l3))⟩,
       ⟨Rect.unit ![0, 2, 0, 0] ![1, 1, 256, 256] s2, tile h1 h2 h3 (View.ld x (Rect.unit (s := Chan) ![0, 128, 0, 0] ![1, 64, 32, 32] l2))⟩,
       ⟨Rect.unit ![0, 1, 0, 0] ![1, 1, 256, 256] s1, tile h1 h2 h3 (View.ld x (Rect.unit (s := Chan) ![0, 64, 0, 0] ![1, 64, 32, 32] l1))⟩,
       ⟨Rect.unit ![0, 0, 0, 0] ![1, 1, 256, 256] s0, tile h1 h2 h3 (View.ld x (Rect.unit (s := Chan) ![0, 0, 0, 0] ![1, 64, 32, 32] l0))⟩] : List (View.Piece Val Canv e)), (ix4 b c r s : Canv.Idx) ∈ p.1.set := by
      have hc6 : c.val < 6 := c.isLt
      rcases (by omega : c.val = 0 ∨ c.val = 1 ∨ c.val = 2 ∨ c.val = 3 ∨ c.val = 4 ∨ c.val = 5) with hc | hc | hc | hc | hc | hc
      · exact ⟨_, .tail _ (.tail _ (.tail _ (.tail _ (.tail _ (.head _))))), mem_class 0 s0 b c r s hc h.1 h.2⟩
      · exact ⟨_, .tail _ (.tail _ (.tail _ (.tail _ (.head _)))), mem_class 1 s1 b c r s hc h.1 h.2⟩
      · exact ⟨_, .tail _ (.tail _ (.tail _ (.head _))), mem_class 2 s2 b c r s hc h.1 h.2⟩
      · exact ⟨_, .tail _ (.tail _ (.head _)), mem_class 3 s3 b c r s hc h.1 h.2⟩
      · exact ⟨_, .tail _ (.head _), mem_class 4 s4 b c r s hc h.1 h.2⟩
      · exact ⟨_, .head _, mem_class 5 s5 b c r s hc h.1 h.2⟩
    rw [canon_append_of_touched _ _ _ hcover]
    exact View.canon_apply_of_pieces (canvas z x) _ hstores _ hcover
  · -- in the border: no class store holds the index, the fill's value stays
    rw [canvas_border z x b c r s h, canon_append_of_untouched]
    · exact congrFun (View.canon_unit_zero (S := Canv) zero_offsets sz (fun _ => z)) _
    · intro p hp
      simp only [List.mem_cons, List.not_mem_nil, or_false] at hp
      rcases hp with rfl | rfl | rfl | rfl | rfl | rfl
      · exact not_mem_class 5 s5 b c r s h
      · exact not_mem_class 4 s4 b c r s h
      · exact not_mem_class 3 s3 b c r s h
      · exact not_mem_class 2 s2 b c r s h
      · exact not_mem_class 1 s1 b c r s h
      · exact not_mem_class 0 s0 b c r s h

end Cert.DepthToSpace
-- ==== Proof.KernelBlock.lean ====
/-
  What one grid point leaves in the output's staging buffer.

  The body fills the point's six canvases with the float zero and then, class by class, loads the class's 64 channels
  from the input block, builds the enlarged picture and stores it in the corner of the class's canvas. The frame run
  found those seven stores as pieces (last store first); read back they are `canvas` of the input block, with the
  float zero in the border (`DepthToSpace.canon_stores`). Each of the six pictures is the same layout chain of its
  channels, whatever name the printed body's cut gave it.
-/
import proofs.«151657_j89206470738670_2_alg».proof.Proof.Gen.KernelIdeal.Frame
import proofs.«151657_j89206470738670_2_alg».proof.Proof.BlockCanvas
import Idealize.ShloMosaic.Lib.Pipeline.Value
import Idealize.ShloMosaic.Lib.Tactic

noncomputable section

namespace Cert.KernelIdeal.BlockValue

open Cert.KernelIdeal Cert.KernelIdeal.Gen Cert.DepthToSpace
open Idealize.ShloMosaic Idealize.ShloMosaic.TcCoe Idealize.SL.Sem

variable {F : FTy → Type} [FloatOps F]

/-- The float zero the body fills the canvases with. -/
abbrev fzero : Elt F .f32 := (Scalar.ofBits .f32 0x00000000#32 : F .f32)

/-- The six pictures are one layout chain of their channels; the fill is constant. -/
theorem pic0 (v : Vec F S1x64x32x32 .f32) : k0_pay4 v = tile (Val := Elt F) (e := .f32)
    shapeCasts_S1x64x32x32_S1x8x8x32x32 transposes_S1x8x8x32x32_p0_3_1_4_2_S1x32x8x32x8 shapeCasts_S1x32x8x32x8_S1x1x256x256 v := rfl
theorem pic1 (v : Vec F S1x64x32x32 .f32) : k0_pay5 v = tile (Val := Elt F) (e := .f32)
    shapeCasts_S1x64x32x32_S1x8x8x32x32 transposes_S1x8x8x32x32_p0_3_1_4_2_S1x32x8x32x8 shapeCasts_S1x32x8x32x8_S1x1x256x256 v := rfl
theorem pic2 (v : Vec F S1x64x32x32 .f32) : k0_pay6 v = tile (Val := Elt F) (e := .f32)
    shapeCasts_S1x64x32x32_S1x8x8x32x32 transposes_S1x8x8x32x32_p0_3_1_4_2_S1x32x8x32x8 shapeCasts_S1x32x8x32x8_S1x1x256x256 v := rfl
theorem pic3 (v : Vec F S1x64x32x32 .f32) : k0_pay7 v = tile (Val := Elt F) (e := .f32)
    shapeCasts_S1x64x32x32_S1x8x8x32x32 transposes_S1x8x8x32x32_p0_3_1_4_2_S1x32x8x32x8 shapeCasts_S1x32x8x32x8_S1x1x256x256 v := rfl
theorem pic4 (v : Vec F S1x64x32x32 .f32) : k0_pay1 v = tile (Val := Elt F) (e := .f32)
    shapeCasts_S1x64x32x32_S1x8x8x32x32 transposes_S1x8x8x32x32_p0_3_1_4_2_S1x32x8x32x8 shapeCasts_S1x32x8x32x8_S1x1x256x256 v := rfl
theorem pic5 (v : Vec F S1x64x32x32 .f32) : k0_pay2 v = tile (Val := Elt F) (e := .f32)
    shapeCasts_S1x64x32x32_S1x8x8x32x32 transposes_S1x8x8x32x32_p0_3_1_4_2_S1x32x8x32x8 shapeCasts_S1x32x8x32x8_S1x1x256x256 v := rfl
theorem fill : (k0_pay3 (F := F) : Vec F S1x6x304x304 .f32) = fun _ => fzero := rfl

/-- WHAT THE BODY LEAVES: on whole staging buffers, the input's holding the image's channels `x`, the output's
    staging buffer ends holding the image's six canvases. -/
theorem out_eq (c : Dev nD) (i : grid0.Coords) (a1 : Memref sig .tc .vmem S1x384x32x32 .f32) (h1 : a1.IsWhole)
    (a2 : Memref sig .tc .vmem S1x6x304x304 .f32) (h2 : a2.IsWhole) (x : Vec F S1x384x32x32 .f32) :
    out0_A_1 c i a1 h1 a2 h2 x = canvas (fzero (F := F)) x := by
  unfold out0_A_1
  rw [View.read_writes_eq_canon _ _ _ (cover0_A_1 c i a1 h1 a2 h2 x)]
  unfold kernelRun0_A
  dsimp only
  sl_unfold_words
  simp only [View.readAt_eq_ld, h1.read_unread, pic0, pic1, pic2, pic3, pic4, pic5, fill]
  exact canon_stores (Val := Elt F) (e := .f32) fzero x _ _ _ _ _ _ _ _ _ _ _ _ _ _ _ _

end Cert.KernelIdeal.BlockValue

end
-- ==== Proof.ArrayCanvas.lean ====
/-
  From the grid's blocks to the result array.

  Grid point `t` stages image `t` of the argument (block `(t, 0, 0, 0)` of extents [1, 384, 32, 32]) and writes back
  image `t`'s six canvases (block `(t, 0, 0, 0)` of extents [1, 6, 304, 304]). The canvases of one image depend on that
  image's channels alone, so what point `t` writes back is block `t` of ONE function of the whole argument array —
  `canvas` over all 64 images —, the 64 blocks cover the result array, and the array after the run is that function.
-/
import proofs.«151657_j89206470738670_2_alg».proof.Proof.Gen.KernelIdeal.Value
import proofs.«151657_j89206470738670_2_alg».proof.Proof.KernelBlock

noncomputable section

namespace Cert.KernelIdeal.ArrayValue

open Cert.KernelIdeal Cert.KernelIdeal.Gen Cert.KernelIdeal.BlockValue Cert.DepthToSpace
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The block of image `tt` of the canvases of all images is the canvases of image `tt` alone: an entry of the block
    `x0` of the argument (image `tt`'s channels) at `u` is the argument's entry of image `tt` at `u`'s other
    coordinates, and the result index `i` is the block index `y` moved to image `tt`. -/
theorem canvas_block {α : Type} (z : α) (X : (⟨4, ![64, 384, 32, 32]⟩ : Shape).Idx → α)
    (x0 : (⟨4, ![1, 384, 32, 32]⟩ : Shape).Idx → α) (tt : Nat) (htt : tt < 64)
    (hx : ∀ u : (⟨4, ![1, 384, 32, 32]⟩ : Shape).Idx, x0 u = X (ix4 (⟨tt, htt⟩ : Fin 64) (u 1) (u 2) (u 3)))
    (y : (⟨4, ![1, 6, 304, 304]⟩ : Shape).Idx) (i : (⟨4, ![64, 6, 304, 304]⟩ : Shape).Idx)
    (hi : (i 0).val = tt ∧ (i 1).val = (y 1).val ∧ (i 2).val = (y 2).val ∧ (i 3).val = (y 3).val) :
    canvas z x0 y = canvas z X i := by
  obtain ⟨hi0, hi1, hi2, hi3⟩ := hi
  unfold canvas
  by_cases h : (y 2).val < 256 ∧ (y 3).val < 256
  · have h' : (i 2).val < 256 ∧ (i 3).val < 256 := by omega
    rw [dif_pos h, dif_pos h', hx]
    refine congrArg X (funext fun d => Fin.ext ?_)
    match d with
    | ⟨0, _⟩ => show tt = (i 0).val; omega
    | ⟨1, _⟩ =>
      show (y 1).val * 64 + ((y 2).val % 8) * 8 + (y 3).val % 8 = (i 1).val * 64 + ((i 2).val % 8) * 8 + (i 3).val % 8
      rw [hi1, hi2, hi3]
    | ⟨2, _⟩ => show (y 2).val / 8 = (i 2).val / 8; rw [hi2]
    | ⟨3, _⟩ => show (y 3).val / 8 = (i 3).val / 8; rw [hi3]
  · have h' : ¬((i 2).val < 256 ∧ (i 3).val < 256) := by omega
    rw [dif_neg h, dif_neg h']

/-- The printed index maps, decided over the 64 points: both windows are at block `(t, 0, 0, 0)`. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The result array as one function of the argument array as the region finds it. -/
abbrev result (c : Dev nD) : Buf (Elt F) ((c : Thread nD τ).loc main_v0) := canvas (fzero (F := F)) (V m c main_arg0)

/-- WHAT POINT `t` WRITES BACK is block `t` of the canvases of the whole argument. -/
theorem flushed_eq (c : Dev nD) (t : Fin cfg0.N) :
    (dats m 0 c).flushed 1 t = ((cfg0.win 1).blk t).view.read (Elt F) (result m c) := by
  rw [Value.flushed1_A, out_eq c (grid0.coords t) (ms0_0 t) (hs0_0 t) (ms0_1 t) (hs0_1 t) (iblk m c 0 t)]
  obtain ⟨e0, e1, e2, e3, f0, f1, f2, f3⟩ := idx_facts t
  have hN : t.val < 64 := Nat.lt_of_lt_of_eq t.isLt N_0
  funext j
  show canvas fzero (iblk m c 0 t) j = canvas fzero (V m c main_arg0) (((cfg0.win 1).blk t).view.emb j)
  refine canvas_block fzero (V m c main_arg0) (iblk m c 0 t) t.val hN ?_ j _ ?_
  · intro u
    show V m c main_arg0 (((cfg0.win 0).blk t).view.emb u) = _
    refine congrArg (V m c main_arg0) (funext fun d => Fin.ext ?_)
    match d with
    | ⟨0, _⟩ => show win0_0.index t (0 : Fin 4) * 1 + 1 * (u 0).val = t.val; have hu : (u 0).val < 1 := (u 0).isLt; omega
    | ⟨1, _⟩ => show win0_0.index t (1 : Fin 4) * 384 + 1 * (u 1).val = (u 1).val; omega
    | ⟨2, _⟩ => show win0_0.index t (2 : Fin 4) * 32 + 1 * (u 2).val = (u 2).val; omega
    | ⟨3, _⟩ => show win0_0.index t (3 : Fin 4) * 32 + 1 * (u 3).val = (u 3).val; omega
  · have hj : (j 0).val < 1 := (j 0).isLt
    refine ⟨?_, ?_, ?_, ?_⟩
    · show win0_1.index t (0 : Fin 4) * 1 + 1 * (j 0).val = t.val; omega
    · show win0_1.index t (1 : Fin 4) * 6 + 1 * (j 1).val = (j 1).val; omega
    · show win0_1.index t (2 : Fin 4) * 304 + 1 * (j 2).val = (j 2).val; omega
    · show win0_1.index t (3 : Fin 4) * 304 + 1 * (j 3).val = (j 3).val; omega

/-- An index of the result array is in point `t`'s block iff each coordinate is in the block's range on its axis. -/
theorem mem_blk (t : Fin cfg0.N) (i : S64x6x304x304.Idx) :
    i ∈ ((cfg0.win 1).blk t).view.set ↔ ∀ a : Fin 4, win0_1.index t a * S1x6x304x304.size a ≤ (i a).val
      ∧ (i a).val < win0_1.index t a * S1x6x304x304.size a + S1x6x304x304.size a := by
  show i ∈ ((View.whole main_v0).slice (win0_1.rect t)).set ↔ _
  rw [View.set_slice_whole, Rect.mem_set_unit]
  exact Iff.rfl

/-- Every index of the result array is in the block of the point of its image. -/
theorem cover (i : S64x6x304x304.Idx) : ∃ t : Fin cfg0.N, (cfg0.win 1).flush t = true ∧ i ∈ ((cfg0.win 1).blk t).view.set := by
  have h0 : (i 0).val < 64 := (i 0).isLt
  have h1 : (i 1).val < 6 := (i 1).isLt
  have h2 : (i 2).val < 304 := (i 2).isLt
  have h3 : (i 3).val < 304 := (i 3).isLt
  obtain ⟨t, ht⟩ : ∃ t : Fin cfg0.N, t.val = (i 0).val := ⟨⟨(i 0).val, Nat.lt_of_lt_of_eq h0 N_0.symm⟩, rfl⟩
  refine ⟨t, flush0_1 t, ?_⟩
  rw [mem_blk]
  obtain ⟨-, -, -, -, f0, f1, f2, f3⟩ := idx_facts t
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 6 ≤ (i 1).val ∧ (i 1).val < win0_1.index t (1 : Fin 4) * 6 + 6
    omega
  | ⟨2, _⟩ =>
    show win0_1.index t (2 : Fin 4) * 304 ≤ (i 2).val ∧ (i 2).val < win0_1.index t (2 : Fin 4) * 304 + 304
    omega
  | ⟨3, _⟩ =>
    show win0_1.index t (3 : Fin 4) * 304 ≤ (i 3).val ∧ (i 3).val < win0_1.index t (3 : Fin 4) * 304 + 304
    omega

/-- THE RESULT ARRAY after the run is the canvases of the argument array. -/
theorem final (c : Dev nD) : (dats m 0 c).arrAt 1 cfg0.N = result m c :=
  (dats m 0 c).arrAt_eq_of_cover 1 (result m c) (fun t _ => flushed_eq m c t) cover

/-- The run, read: the result array at the canvases of the argument as launched, the argument unchanged. -/
theorem run : θ_run defs (onTc (τ := τ) (main (F := F))) ⟨m, fun _ => 0, ρ⟩ fun r => ∀ c : Dev nD,
      r.2.mem ((c : Thread nD τ).loc main_v0) = canvas (fzero (F := F)) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.RefCanvas.lean ====
/-
  The reference computes the canvas.

  The reference splits the 384 channels of each image into (class, p, q) (`[64, 384, 32, 32] → [64, 6, 8, 8, 32, 32]`),
  reorders the axes to (image, class, i, p, j, q), merges (i, p) into a row and (j, q) into a column
  (`→ [64, 6, 256, 256]`) and pads each 256 × 256 picture on the high side to 304 × 304 with the integer zero converted
  to a float — the real number 0. The two merges and the split preserve the row-major position; the reordering is read
  by the generated `val_main_v1_apply`; the padding reads its operand inside the picture and the padding value outside.
  So the reference's result is `canvas 0` of its argument, index by index.
-/
import proofs.«151657_j89206470738670_2_alg».proof.Proof.Gen.ReferenceIdeal.Read
import proofs.«151657_j89206470738670_2_alg».proof.Proof.Canvas
import Idealize.ShloMosaic.Lib.KernelVsHost
import Idealize.ShloMosaic.Lib.ValueIdxRank6

noncomputable section

namespace Cert.ReferenceIdeal.RefValue

open Cert.ReferenceIdeal Cert.ReferenceIdeal.Read Cert.DepthToSpace
open Idealize.ShloMosaic Idealize.ShloMosaic.ValueIdx

/-- The padding value: the integer 0 converted to a float is the real number 0. -/
theorem pad_value (i : S_.Idx) : val_main_call0_v0 (F := Ideal) i = (0 : EReal) := by
  rw [val_main_call0_v0_apply, val_main_c_apply]
  exact sitofp_zero (φ := .f32)

/-- One picture before the padding, at row `r`, column `s`: the source entry. -/
theorem picture_apply (X : (⟨S64x384x32x32, .f32⟩ : BufTy).Contents (Elt Ideal)) (b : Fin 64) (c : Fin 6) (r s : Fin 304)
    (hr : r.val < 256) (hs : s.val < 256) :
    val_main_v2 (F := Ideal) X (ix4 b c (⟨r.val, hr⟩ : Fin 256) (⟨s.val, hs⟩ : Fin 256)) = X (source b c r s hr hs) := by
  unfold val_main_v2
  refine (shapeCast_apply _ _ _ (ix6 b c (⟨r.val / 8, by omega⟩ : Fin 32) (⟨r.val % 8, by omega⟩ : Fin 8)
    (⟨s.val / 8, by omega⟩ : Fin 32) (⟨s.val % 8, by omega⟩ : Fin 8)) ?_).trans ?_
  · rw [Shape.rowMajor_val_six, Shape.rowMajor_val_four]
    show ((((b.val * 6 + c.val) * 32 + r.val / 8) * 8 + r.val % 8) * 32 + s.val / 8) * 8 + s.val % 8
      = ((b.val * 6 + c.val) * 256 + r.val) * 256 + s.val
    omega
  rw [val_main_v1_apply]
  unfold val_main_v0
  refine shapeCast_apply _ _ _ _ ?_
  rw [Shape.rowMajor_val_four, Shape.rowMajor_val_six]
  show ((b.val * 384 + (c.val * 64 + (r.val % 8) * 8 + s.val % 8)) * 32 + r.val / 8) * 32 + s.val / 8
    = ((((b.val * 6 + c.val) * 8 + r.val % 8) * 8 + s.val % 8) * 32 + r.val / 8) * 32 + s.val / 8
  omega

/-- THE REFERENCE'S RESULT IS THE CANVAS of its argument, with the real number 0 around the pictures. -/
theorem result_eq (X : (⟨S64x384x32x32, .f32⟩ : BufTy).Contents (Elt Ideal)) :
    val_main_v3 (F := Ideal) X = canvas (0 : EReal) X := by
  funext j
  obtain ⟨b, c, r, s, rfl⟩ : ∃ (b : Fin 64) (c : Fin 6) (r s : Fin 304), j = ix4 b c r s := ⟨j 0, j 1, j 2, j 3, eq_ix4 j⟩
  unfold val_main_v3
  by_cases h : r.val < 256 ∧ s.val < 256
  · rw [canvas_inside _ _ b c r s h.1 h.2]
    refine (pad_apply_of_inside (s := S64x6x256x256) (t := S64x6x304x304) ![0, 0, 0, 0] ![0, 0, 48, 48] ![0, 0, 0, 0] _ _ _ _ (ix4 b c r s)
      (ix4 b c (⟨r.val, h.1⟩ : Fin 256) (⟨s.val, h.2⟩ : Fin 256)) ?_).trans (picture_apply X b c r s h.1 h.2)
    intro a
    match a with
    | ⟨0, _⟩ => show b.val = 0 + b.val * (0 + 1); omega
    | ⟨1, _⟩ => show c.val = 0 + c.val * (0 + 1); omega
    | ⟨2, _⟩ => show r.val = 0 + r.val * (0 + 1); omega
    | ⟨3, _⟩ => show s.val = 0 + s.val * (0 + 1); omega
  · rw [canvas_border _ _ b c r s h]
    by_cases hr : r.val < 256
    · refine (pad_apply_of_not_inside (s := S64x6x256x256) (t := S64x6x304x304) ![0, 0, 0, 0] ![0, 0, 48, 48] ![0, 0, 0, 0] _ _ _ _
        (ix4 b c r s) (3 : Fin 4) ?_).trans (pad_value _)
      show ¬(0 ≤ s.val ∧ (s.val - 0) % (0 + 1) = 0 ∧ (s.val - 0) / (0 + 1) < 256)
      omega
    · refine (pad_apply_of_not_inside (s := S64x6x256x256) (t := S64x6x304x304) ![0, 0, 0, 0] ![0, 0, 48, 48] ![0, 0, 0, 0] _ _ _ _
        (ix4 b c r s) (2 : Fin 4) ?_).trans (pad_value _)
      show ¬(0 ≤ r.val ∧ (r.val - 0) % (0 + 1) = 0 ∧ (r.val - 0) / (0 + 1) < 256)
      omega

end Cert.ReferenceIdeal.RefValue

end
-- ==== Proof.lean ====
/-
  Depth-to-space into a zero-padded canvas: the kernel against its reference, over the extended reals.

  The argument holds 64 images of 384 channels of 32 × 32 pixels; the result holds, per image, 6 canvases of 304 × 304.
  Channel `64·c + 8·p + q` of an image is sub-pixel `(p, q)` of class `c`'s 8-fold enlargement, so the enlarged 256 × 256
  picture of class `c` holds at row `r`, column `s` the entry `[64·c + 8·(r mod 8) + (s mod 8), r div 8, s div 8]` of the
  image; it sits in the top-left corner of canvas `c`, and the rest of the canvas is zero (Proof/Canvas.lean: `canvas`).

  * The kernel handles one image per grid point: it fills the point's six canvases with the float zero and then stores
    each class's enlarged picture — its 64 channels split into 8 × 8 sub-pixels, the sub-pixel axes moved inside the
    pixel axes, rows and columns merged — into the corner of its canvas. Read back, those seven stores are the image's
    canvases (Proof/TwoRounds.lean, Proof/BlockCanvas.lean, Proof/KernelBlock.lean); the canvases of an image depend on
    that image alone, so the 64 blocks written back are the blocks of one function of the whole argument and cover the
    result array (Proof/ArrayCanvas.lean).
  * The reference does the same split, reordering and merge on all images at once and pads each picture with the
    integer zero converted to a float (Proof/RefCanvas.lean).

  Both results are `canvas 0` of the argument: nothing is computed, entries are only moved, and the one number written,
  zero, is the real number 0 on both sides. No law of arithmetic is used, so the inputs' finiteness is never opened.
  The three frames are the generated ones (the reference's is its generated run with the result dropped), and the ideal
  pass rewrote nothing, so `preserves` is `True`.
-/
import proofs.«151657_j89206470738670_2_alg».proof.Defs
import proofs.«151657_j89206470738670_2_alg».proof.Proof.Gen.Kernel
import proofs.«151657_j89206470738670_2_alg».proof.Proof.Gen.Kernel.Skeleton
import proofs.«151657_j89206470738670_2_alg».proof.Proof.Gen.Kernel.Launch
import proofs.«151657_j89206470738670_2_alg».proof.Proof.Gen.Kernel.Points
import proofs.«151657_j89206470738670_2_alg».proof.Proof.Gen.Kernel.Frame
import proofs.«151657_j89206470738670_2_alg».proof.Proof.Gen.KernelIdeal
import proofs.«151657_j89206470738670_2_alg».proof.Proof.Gen.KernelIdeal.Skeleton
import proofs.«151657_j89206470738670_2_alg».proof.Proof.Gen.KernelIdeal.Launch
import proofs.«151657_j89206470738670_2_alg».proof.Proof.Gen.KernelIdeal.Points
import proofs.«151657_j89206470738670_2_alg».proof.Proof.Gen.KernelIdeal.Frame
import proofs.«151657_j89206470738670_2_alg».proof.Proof.Gen.ReferenceIdeal
import proofs.«151657_j89206470738670_2_alg».proof.Proof.Gen.Pre_finite_inputs
import proofs.«151657_j89206470738670_2_alg».proof.Proof.Gen.KernelIdeal.Value
import proofs.«151657_j89206470738670_2_alg».proof.Proof.Gen.ReferenceIdeal.Run
import proofs.«151657_j89206470738670_2_alg».proof.Proof.Gen.ReferenceIdeal.Read
import proofs.«151657_j89206470738670_2_alg».proof.Proof.ArrayCanvas
import proofs.«151657_j89206470738670_2_alg».proof.Proof.RefCanvas
import Idealize.ShloMosaic.PureOps.Ideal.Laws
import Idealize.ShloMosaic.Adequacy
import Idealize.ShloMosaic.Init

noncomputable section

namespace Cert.Proof

open Idealize.ShloMosaic Idealize.SL.Sem Cert.DepthToSpace

/-- The kernel's fill value, the float zero, is the real number 0 over the extended reals. -/
theorem fill_value : (Cert.KernelIdeal.BlockValue.fzero (F := Ideal)) = (0 : EReal) := by
  show Ideal.ofBits .f32 0x00000000#32 = 0
  exact Ideal.ofBits_zero_f32

theorem frame_kernel : Cert.frame_Kernel := fun m ρ _ => Cert.Kernel.Gen.frame m ρ

theorem frame_kernel_ideal : Cert.frame_KernelIdeal := fun m ρ _ => Cert.KernelIdeal.Gen.frame m ρ

/-- The reference launches no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the argument, the kernel's result array and the reference's both end at the
    canvases of the argument, with the real number 0 around the pictures. -/
theorem algebraic : Cert.algebraic_KernelIdeal_ReferenceIdeal := by
  intro m ρ m' ρ' _ hagree
  refine ⟨fun c => canvas (0 : EReal) (m ((c.tc : Thread Cert.KernelIdeal.nD Cert.KernelIdeal.τ).loc Cert.KernelIdeal.main_arg0)), ?_, ?_⟩
  · refine (θ_run Cert.KernelIdeal.defs _ _).mono (fun _ h c => ⟨(h c).1.trans ?_, (h c).2⟩)
      (Cert.KernelIdeal.ArrayValue.run (F := Ideal) m ρ)
    rw [fill_value]
  · refine (θ_run Cert.ReferenceIdeal.defs _ _).mono (fun _ h c => ⟨?_, (h c).2⟩)
      (Cert.ReferenceIdeal.Value.run (F := Ideal) m' ρ')
    rw [(h c).1, Cert.ReferenceIdeal.Read.val_main_v3_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
